-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S512x512 : Shape := ⟨2, ![512, 512]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S16x4096x512 .f32) (main_arg1 : FVec F S512x512 .f32) (main_arg2 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S16x4096x512 : Shape := ⟨3, ![16, 4096, 512]⟩
abbrev S512x512 : Shape := ⟨2, ![512, 512]⟩
abbrev S512 : Shape := ⟨1, ![512]⟩
abbrev S65536x512 : Shape := ⟨2, ![65536, 512]⟩
abbrev S1x512 : Shape := ⟨2, ![1, 512]⟩
abbrev S2048x512 : Shape := ⟨2, ![2048, 512]⟩

abbrev nBuf : Space → Nat
  | .hbm => 10
  | .vmem => 6
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512, .f32⟩
  | .hbm, ⟨3, _⟩ => ⟨S65536x512, .f32⟩
  | .hbm, ⟨4, _⟩ => ⟨S512x512, .f32⟩
  | .hbm, ⟨5, _⟩ => ⟨S512x512, .f32⟩
  | .hbm, ⟨6, _⟩ => ⟨S512x512, .bf16⟩
  | .hbm, ⟨7, _⟩ => ⟨S1x512, .f32⟩
  | .hbm, ⟨8, _⟩ => ⟨S65536x512, .f32⟩
  | .hbm, ⟨9, _⟩ => ⟨S16x4096x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x4096x512_S65536x512 : S16x4096x512.ShapeCasts S65536x512
  transposes_S512x512_S512x512_1_0 : S512x512.Transposes [1, 0] S512x512
  bitsLt_bf16_f32 : FTy.bits .bf16 < FTy.bits .f32
  shapeCasts_S512_S1x512 : S512.ShapeCasts S1x512
  shapeCasts_S65536x512_S16x4096x512 : S65536x512.ShapeCasts S16x4096x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_call0_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S512x512 : Shape := ⟨2, ![512, 512]⟩
abbrev S512 : Shape := ⟨1, ![512]⟩
abbrev S1x1x512 : Shape := ⟨3, ![1, 1, 512]⟩

abbrev nBuf : Space → Nat
  | .hbm => 8
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S16x4096x512, .f32⟩
  | .hbm, ⟨5, _⟩ => ⟨S1x1x512, .f32⟩
  | .hbm, ⟨6, _⟩ => ⟨S16x4096x512, .f32⟩
  | .hbm, ⟨7, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  dot_S16x4096x512_S512x512_S16x4096x512_2_1_01_0_n_n_wf : DotDims.WF S16x4096x512 S512x512 S16x4096x512 [2] [1] [0, 1] [0] [] []

variable [Facts₀]

def dot_S16x4096x512_S512x512_S16x4096x512_2_1_01_0_n_n : DotDims S16x4096x512 S512x512 S16x4096x512 where
  lhsContracting := [2]
  rhsContracting := [1]
  lhsNonContracting := [0, 1]
  rhsNonContracting := [0]
  lhsBatch := []
  rhsBatch := []
  wf := dot_S16x4096x512_S512x512_S16x4096x512_2_1_01_0_n_n_wf

class Facts : Prop extends Facts₀ where

variable [Facts]
-- ==== Proof.SignedLinear.lean ====
/-
  The function both programs compute, on the extended reals:

      y[b, s, o] = ∑ k, x[b, s, k] · sign(w[o, k]) + bias[o]      (b < 16, s < 4096, o < 512, k < 512).

  It is stated twice: over the three-axis activations, as the reference spells it, and over the activations with the two
  leading axes flattened into 65536 rows, a transposed sign matrix and a one-row bias, as the kernel's grid meets it.
  The second read at row `b · 4096 + s` is the first at `(b, s)`: only the names of the entries differ, so no law of
  the extended reals beyond the congruence of sums is used, and finiteness of the inputs plays no part.
-/
import Idealize.ShloMosaic.PureOps.Ideal
import Idealize.ShloMosaic.PureOps.Ideal.Laws
import Idealize.ShloMosaic.Lib.ValueIdx

noncomputable section

namespace Cert.SignedLinear

open Idealize.ShloMosaic Idealize.ShloMosaic.ValueIdx

/-- The signed linear map, entry by entry, over the three-axis activations `x`, the weights `w` and the bias. -/
def signedLinear (x : (⟨3, ![16, 4096, 512]⟩ : Shape).Idx → EReal) (w : (⟨2, ![512, 512]⟩ : Shape).Idx → EReal)
    (bias : (⟨1, ![512]⟩ : Shape).Idx → EReal) : (⟨3, ![16, 4096, 512]⟩ : Shape).Idx → EReal :=
  fun i => (∑ k : Fin 512, x (ix3 (i 0) (i 1) k) * Ideal.sign (w (ix2 (i 2) k))) + bias (ix1 (i 2))

/-- Rows times a matrix plus one repeated row: `z[r, o] = ∑ k, xf[r, k] · wt[k, o] + b[0, o]` over 65536 rows. -/
def rowsTimes (xf : (⟨2, ![65536, 512]⟩ : Shape).Idx → EReal) (wt : (⟨2, ![512, 512]⟩ : Shape).Idx → EReal)
    (b : (⟨2, ![1, 512]⟩ : Shape).Idx → EReal) : (⟨2, ![65536, 512]⟩ : Shape).Idx → EReal :=
  fun j => (∑ k : Fin 512, xf (ix2 (j 0) k) * wt (ix2 k (j 1))) + b (ix2 (0 : Fin 1) (j 1))

/-- Row `b · 4096 + s` of the 65536 flattened rows. -/
def flatRow (b : Fin 16) (s : Fin 4096) : Fin 65536 := ⟨b.val * 4096 + s.val, by have := b.isLt; have := s.isLt; omega⟩

/-- If the flattened activations list the rows of `x` in row-major order, the matrix holds the transposed signs of the
    weights and the one row is the bias, then row `b · 4096 + s` of `rowsTimes` is `signedLinear` at `(b, s)`. -/
theorem rowsTimes_flat (x : (⟨3, ![16, 4096, 512]⟩ : Shape).Idx → EReal) (w : (⟨2, ![512, 512]⟩ : Shape).Idx → EReal)
    (bias : (⟨1, ![512]⟩ : Shape).Idx → EReal)
    (xf : (⟨2, ![65536, 512]⟩ : Shape).Idx → EReal) (wt : (⟨2, ![512, 512]⟩ : Shape).Idx → EReal)
    (b1 : (⟨2, ![1, 512]⟩ : Shape).Idx → EReal)
    (hx : ∀ (b : Fin 16) (s : Fin 4096) (k : Fin 512), xf (ix2 (flatRow b s) k) = x (ix3 b s k))
    (hw : ∀ (k o : Fin 512), wt (ix2 k o) = Ideal.sign (w (ix2 o k)))
    (hb : ∀ o : Fin 512, b1 (ix2 (0 : Fin 1) o) = bias (ix1 o))
    (b : Fin 16) (s : Fin 4096) (o : Fin 512) :
    rowsTimes xf wt b1 (ix2 (flatRow b s) o) = signedLinear x w bias (ix3 b s o) := by
  unfold rowsTimes signedLinear
  show (∑ k : Fin 512, xf (ix2 (flatRow b s) k) * wt (ix2 k o)) + b1 (ix2 (0 : Fin 1) o)
    = (∑ k : Fin 512, x (ix3 b s k) * Ideal.sign (w (ix2 o k))) + bias (ix1 o)
  rw [hb o]
  refine congrArg (· + bias (ix1 o)) (Finset.sum_congr rfl fun k _ => ?_)
  rw [hx b s k, hw k o]

end Cert.SignedLinear

end
-- ==== Proof.RefSignedLinear.lean ====
/-
  The reference computes the signed linear map.

  Its five operations — the sign of the weights, the contraction of the activations' last axis with the signs' second
  axis, the bias broadcast twice, the sum — read at an entry `(b, s, o)` give
  `∑ k, x[b,s,k] · sign(w[o,k]) + bias[o]`: the generated reading lemmas name each operand's entry, and the entries are
  the ones `signedLinear` names.
-/
import proofs.«149133_j61933428408793_2_alg».proof.Proof.Gen.ReferenceIdeal.Read
import proofs.«149133_j61933428408793_2_alg».proof.Proof.SignedLinear

noncomputable section

namespace Cert.ReferenceIdeal.RefValue

open Cert.ReferenceIdeal Cert.ReferenceIdeal.Read Idealize.ShloMosaic Idealize.ShloMosaic.ValueIdx Cert.SignedLinear

/-- The reference's last stage, as a function of the three arguments, is `signedLinear`. -/
theorem result_eq (x : (⟨S16x4096x512, .f32⟩ : BufTy).Contents (Elt Ideal)) (w : (⟨S512x512, .f32⟩ : BufTy).Contents (Elt Ideal))
    (bias : (⟨S512, .f32⟩ : BufTy).Contents (Elt Ideal)) :
    val_main_v4 (F := Ideal) x w bias = signedLinear x w bias := by
  funext i
  rw [val_main_v4_apply, val_main_v1_apply, val_main_v3_apply, val_main_v2_apply]
  unfold signedLinear
  refine congrArg₂ (· + ·) (Finset.sum_congr rfl fun k _ => ?_) ?_
  · rw [val_main_v0_apply]
    have el : lidx_main_v1 i k = ix3 (i 0) (i 1) k :=
      funext fun a => Fin.ext (by match a with | ⟨0, _⟩ => rfl | ⟨1, _⟩ => rfl | ⟨2, _⟩ => rfl)
    have er : ridx_main_v1 i k = ix2 (i 2) k :=
      funext fun a => Fin.ext (by match a with | ⟨0, _⟩ => rfl | ⟨1, _⟩ => rfl)
    rw [el, er]
    rfl
  · exact congrArg bias (funext fun a => Fin.ext (by match a with | ⟨0, _⟩ => rfl))

end Cert.ReferenceIdeal.RefValue

end
-- ==== Proof.BlockProduct.lean ====
/-
  One grid point's arithmetic, read entry by entry.

  The body of the kernel takes a block `x` of 2048 rows of the flattened activations, the whole 512 × 512 matrix
  `wt` (the transposed signs of the weights) and the one-row bias `b`, and stores `x · wt + b`.  At the ideal
  instance the narrowing of `x` to sixteen bits is the identity, the product into a zero accumulator is the plain
  sum over the contracted axis, and the bias row is repeated down the rows.  So the stored value at row `p` and
  column `q` is `∑ k, x[p,k] · wt[k,q] + b[0,q]`.
-/
import proofs.«149133_j61933428408793_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- Coordinates of the two operands' entries the block product multiplies at an output entry `i` and a contraction index
    `c`: the left one sits in `i`'s row at column `c`, the right one in row `c` at `i`'s column. -/
theorem lhs_row (i : S2048x512.Idx) (c : dot_S2048x512_S512x512_S2048x512_1_0_0_1_n_n.contr.Idx) : (dot_S2048x512_S512x512_S2048x512_1_0_0_1_n_n.lhsIdx i c 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_col (i : S2048x512.Idx) (c : dot_S2048x512_S512x512_S2048x512_1_0_0_1_n_n.contr.Idx) : (dot_S2048x512_S512x512_S2048x512_1_0_0_1_n_n.lhsIdx i c 1).val = (c ⟨0, by decide⟩).val :=
  dot_S2048x512_S512x512_S2048x512_1_0_0_1_n_n.lhsIdx_val_of_single rfl i c
theorem rhs_row (i : S2048x512.Idx) (c : dot_S2048x512_S512x512_S2048x512_1_0_0_1_n_n.contr.Idx) : (dot_S2048x512_S512x512_S2048x512_1_0_0_1_n_n.rhsIdx i c 0).val = (c ⟨0, by decide⟩).val :=
  dot_S2048x512_S512x512_S2048x512_1_0_0_1_n_n.rhsIdx_val_of_single rfl i c
theorem rhs_col (i : S2048x512.Idx) (c : dot_S2048x512_S512x512_S2048x512_1_0_0_1_n_n.contr.Idx) : (dot_S2048x512_S512x512_S2048x512_1_0_0_1_n_n.rhsIdx i c 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The left operand of the block product at output entry `(p, q)` and contraction step `k` is entry `(p, k)`. -/
theorem lhs_at (p : Fin 2048) (q : Fin 512) (k : Fin 512) :
    dot_S2048x512_S512x512_S2048x512_1_0_0_1_n_n.lhsIdx (ix2 p q) ((contrEquiv1 dot_S2048x512_S512x512_S2048x512_1_0_0_1_n_n 512 rfl rfl).symm k) = ix2 p k := by
  have hk := contrEquiv1_symm_val dot_S2048x512_S512x512_S2048x512_1_0_0_1_n_n 512 rfl rfl k
  exact funext fun a => Fin.ext (by
    match a with
    | ⟨0, _⟩ => exact lhs_row _ _
    | ⟨1, _⟩ => exact (lhs_col _ _).trans hk)

/-- The right operand there is entry `(k, q)`. -/
theorem rhs_at (p : Fin 2048) (q : Fin 512) (k : Fin 512) :
    dot_S2048x512_S512x512_S2048x512_1_0_0_1_n_n.rhsIdx (ix2 p q) ((contrEquiv1 dot_S2048x512_S512x512_S2048x512_1_0_0_1_n_n 512 rfl rfl).symm k) = ix2 k q := by
  have hk := contrEquiv1_symm_val dot_S2048x512_S512x512_S2048x512_1_0_0_1_n_n 512 rfl rfl k
  exact funext fun a => Fin.ext (by
    match a with
    | ⟨0, _⟩ => exact (rhs_row _ _).trans hk
    | ⟨1, _⟩ => exact rhs_col _ _)

/-- The block product into a zero accumulator, at entry `(p, q)`: the sum over the 512 contraction steps. -/
theorem product_at (l : FVec Ideal S2048x512 .bf16) (r : FVec Ideal S512x512 .bf16) (p : Fin 2048) (q : Fin 512) :
    matmul dot_S2048x512_S512x512_S2048x512_1_0_0_1_n_n none l r (constant (F := Ideal) S2048x512 .f32 0x00000000#32) (ix2 p q)
      = ∑ k : Fin 512, l (ix2 p k) * r (ix2 k q) := by
  refine (Ideal.matmul_constant_zero_apply dot_S2048x512_S512x512_S2048x512_1_0_0_1_n_n none l r (ix2 p q)).trans ?_
  rw [← Equiv.sum_comp (contrEquiv1 dot_S2048x512_S512x512_S2048x512_1_0_0_1_n_n 512 rfl rfl).symm]
  refine Finset.sum_congr rfl fun k _ => ?_
  rw [lhs_at p q k, rhs_at p q k]

/-- What the body stores, at row `p` and column `q` of the block. -/
theorem stored_at (x : Vec Ideal S2048x512 .f32) (wt : Vec Ideal S512x512 .bf16) (b : Vec Ideal S1x512 .f32)
    (p : Fin 2048) (q : Fin 512) :
    k0_pay1 (F := Ideal) x wt b (ix2 p q) = (∑ k : Fin 512, x (ix2 p k) * wt (ix2 k q)) + b (ix2 (0 : Fin 1) q) := by
  unfold k0_pay1
  refine (addf_apply _ _ (ix2 p q)).trans ?_
  rw [shapeCast_self, shapeCast_self, shapeCast_self]
  refine congrArg₂ (· + ·) ((product_at _ _ p q).trans rfl) ?_
  exact broadcastTo_1b_ab_apply b broadcasts_S1x512_S2048x512 p q

end Cert.KernelIdeal.Body

end
-- ==== Proof.Rows.lean ====
/-
  From the grid's blocks to the whole array of rows.

  The grid has 32 points.  Point `t` is handed rows `2048·t … 2048·t + 2047` of the flattened activations, the whole
  transposed sign matrix and the whole bias row, and writes back rows `2048·t … 2048·t + 2047` of the result.  By the
  entrywise reading of the body, what it writes back is that block of rows of ONE function of the three arrays,
  `rowsTimes`; the 32 blocks of 2048 rows cover the 65536 rows (row `r` is in block `r / 2048`), so after the last
  point the result array is `rowsTimes` of the three arrays.
-/
import proofs.«149133_j61933428408793_2_alg».proof.Proof.Gen.KernelIdeal.Frame
import proofs.«149133_j61933428408793_2_alg».proof.Proof.BlockProduct
import proofs.«149133_j61933428408793_2_alg».proof.Proof.SignedLinear

noncomputable section

namespace Cert.KernelIdeal.Rows

open Cert.KernelIdeal Cert.KernelIdeal.Gen Cert.KernelIdeal.Body Cert.SignedLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The printed index maps over the 32 points: the activations' and the result's block of rows is the point's number,
    every other block index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `2048·t + p` of the 65536 rows: row `p` of point `t`'s block. -/
def blockRow (t : Fin cfg0.N) (p : Fin 2048) : Fin 65536 :=
  ⟨t.val * 2048 + p.val, by have ht : t.val < 32 := lt_of_lt_of_eq t.isLt N_0; have := p.isLt; omega⟩

/-- Entry `(p, k)` of the activations' block at point `t` is entry `(2048·t + p, k)` of the flattened activations. -/
theorem x_entry (c : Dev nD) (t : Fin cfg0.N) (p : Fin 2048) (k : Fin 512) :
    iblk m c 0 t (ix2 p k) = V m c main_call0_v0 (ix2 (blockRow t p) k) := by
  obtain ⟨e0, e1, -⟩ := index_facts t
  show V m c main_call0_v0 (((cfg0.win 0).blk t).view.emb (ix2 p k)) = V m c main_call0_v0 (ix2 (blockRow t p) k)
  refine congrArg (V m c main_call0_v0) (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 512 + 1 * k.val = k.val; rw [e1]; omega

/-- The matrix's block at every point is the whole matrix. -/
theorem wt_entry (c : Dev nD) (t : Fin cfg0.N) (k q : Fin 512) :
    iblk m c 1 t (ix2 k q) = V m c main_call0_v3 (ix2 k q) := by
  obtain ⟨-, -, e2, e3, -⟩ := index_facts t
  show V m c main_call0_v3 (((cfg0.win 1).blk t).view.emb (ix2 k q)) = V m c main_call0_v3 (ix2 k q)
  refine congrArg (V m c main_call0_v3) (funext fun a => Fin.ext ?_)
  match a with
  | ⟨0, _⟩ => show win0_1.index t (0 : Fin 2) * 512 + 1 * k.val = k.val; rw [e2]; omega
  | ⟨1, _⟩ => show win0_1.index t (1 : Fin 2) * 512 + 1 * q.val = q.val; rw [e3]; omega

/-- The bias row's block at every point is the whole row. -/
theorem b_entry (c : Dev nD) (t : Fin cfg0.N) (q : Fin 512) :
    iblk m c 2 t (ix2 (0 : Fin 1) q) = V m c main_call0_v4 (ix2 (0 : Fin 1) q) := by
  obtain ⟨-, -, -, -, e4, e5, -⟩ := index_facts t
  show V m c main_call0_v4 (((cfg0.win 2).blk t).view.emb (ix2 (0 : Fin 1) q)) = V m c main_call0_v4 (ix2 (0 : Fin 1) q)
  refine congrArg (V m c main_call0_v4) (funext fun a => Fin.ext ?_)
  match a with
  | ⟨0, _⟩ => show win0_2.index t (0 : Fin 2) * 1 + 1 * 0 = 0; rw [e4]
  | ⟨1, _⟩ => show win0_2.index t (1 : Fin 2) * 512 + 1 * q.val = q.val; rw [e5]; omega

/-- Entry `(p, q)` of the result's block at point `t` sits at `(2048·t + p, q)` of the result array. -/
theorem out_entry (t : Fin cfg0.N) (p : Fin 2048) (q : Fin 512) :
    ((cfg0.win 3).blk t).view.emb (ix2 p q) = ix2 (blockRow t p) q := by
  obtain ⟨-, -, -, -, -, -, e6, e7⟩ := index_facts t
  refine funext fun a => Fin.ext ?_
  match a with
  | ⟨0, _⟩ => show win0_3.index t (0 : Fin 2) * 2048 + 1 * p.val = t.val * 2048 + p.val; rw [e6]; omega
  | ⟨1, _⟩ => show win0_3.index t (1 : Fin 2) * 512 + 1 * q.val = q.val; rw [e7]; omega

/-- What point `t` writes back is its block of rows of `rowsTimes` of the three arrays as the grid finds them. -/
theorem flushed_eq (c : Dev nD) (t : Fin cfg0.N) :
    (dats m 0 c).flushed 3 t = ((cfg0.win 3).blk t).view.read (Elt Ideal)
      (rowsTimes (V m c main_call0_v0) (V m c main_call0_v3) (V m c main_call0_v4)) := by
  show (cfg0.win 3).cut (grid0.coords t) ((dats m 0 c).after 3 t) = _
  rw [after0_3]
  unfold out0_3
  rw [View.canon_unit_zero zero_offsets]
  simp only [View.ld_unit_zero (S := S2048x512) zero_offsets, View.ld_unit_zero (S := S512x512) zero_offsets,
    View.ld_unit_zero (S := S1x512) zero_offsets]
  funext j
  obtain ⟨p, q, rfl⟩ : ∃ (p : Fin 2048) (q : Fin 512), j = ix2 p q := ⟨j 0, j 1, eq_ix2 j⟩
  refine (stored_at (iblk m c 0 t) (iblk m c 1 t) (iblk m c 2 t) p q).trans ?_
  show _ = rowsTimes (V m c main_call0_v0) (V m c main_call0_v3) (V m c main_call0_v4) (((cfg0.win 3).blk t).view.emb (ix2 p q))
  rw [out_entry t p q, b_entry m c t q]
  unfold rowsTimes
  refine congrArg (· + V m c main_call0_v4 (ix2 (0 : Fin 1) q)) (Finset.sum_congr rfl fun k _ => ?_)
  rw [x_entry m c t p k, wt_entry m c t k q]

/-- An entry of the result array is in point `t`'s block when each coordinate is in the block's range on its axis. -/
theorem mem_blk (t : Fin cfg0.N) (i : S65536x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_call0_v5).slice (win0_3.rect t)).set ↔ _
  rw [View.set_slice_whole, Rect.mem_set_unit]
  exact Iff.rfl

/-- Every entry of the result array is written back by some point: row `r` by point `r / 2048`. -/
theorem covered (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  have ht : (i 0).val / 2048 < cfg0.N := by rw [show cfg0.N = 32 from N_0]; omega
  obtain ⟨-, -, -, -, -, -, e6, e7⟩ := index_facts ⟨(i 0).val / 2048, ht⟩
  refine ⟨⟨(i 0).val / 2048, ht⟩, flush0_3 _, ?_⟩
  rw [mem_blk]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e6]
    show (i 0).val / 2048 * 2048 ≤ (i 0).val ∧ (i 0).val < (i 0).val / 2048 * 2048 + 2048
    omega
  | ⟨1, _⟩ =>
    show win0_3.index ⟨(i 0).val / 2048, ht⟩ (1 : Fin 2) * 512 ≤ (i 1).val
      ∧ (i 1).val < win0_3.index ⟨(i 0).val / 2048, ht⟩ (1 : Fin 2) * 512 + 512
    rw [e7]
    omega

/-- After the last point the result array holds `rowsTimes` of the three arrays as the grid found them. -/
theorem rows_final (c : Dev nD) :
    (dats m 0 c).arrAt 3 cfg0.N = rowsTimes (V m c main_call0_v0) (V m c main_call0_v3) (V m c main_call0_v4) :=
  (dats m 0 c).arrAt_eq_of_cover 3 _ (fun t _ => flushed_eq m c t) covered

end Cert.KernelIdeal.Rows

end
-- ==== Proof.Whole.lean ====
/-
  The whole idealized kernel program computes the signed linear map.

  Before the grid the program flattens the activations' two leading axes into 65536 rows, takes the signs of the weights,
  transposes them (their narrowing to sixteen bits is the identity at the ideal instance) and turns the bias into a
  one-row matrix; after the grid it splits the 65536 rows of the result back into 16 × 4096.  Each of these only renames
  entries: flat row `b · 4096 + s` is `(b, s)`, the transposed signs at `(k, o)` are the signs at `(o, k)`, the one
  row at `(0, o)` is the bias at `o`.  With the grid's result known to be `rowsTimes` of the three prepared arrays,
  the program's result is `signedLinear` of its three arguments.
-/
import proofs.«149133_j61933428408793_2_alg».proof.Proof.Gen.KernelIdeal.Frame
import proofs.«149133_j61933428408793_2_alg».proof.Proof.Rows
import proofs.«149133_j61933428408793_2_alg».proof.Proof.SignedLinear
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Cert.KernelIdeal.Rows Cert.SignedLinear
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The three arrays the grid is launched on -/

/-- The flattened activations are the activations re-read in row-major order. -/
theorem flat_x (c : Dev nD) : (V m c main_call0_v0 : S65536x512.Idx → EReal)
    = shapeCast S65536x512 (m ((c : Thread nD τ).loc main_arg0)) shapeCasts_S16x4096x512_S65536x512 := by
  show StableHlo.after hostOps0 (fun b => m (c, b)) (Proc.devRef .tc main_call0_v0) = _
  after_results
  rfl

/-- The matrix is the transposed signs of the weights, narrowed. -/
theorem signs_t (c : Dev nD) : (V m c main_call0_v3 : S512x512.Idx → EReal)
    = truncf (F := Ideal) .bf16 (transpose S512x512 [1, 0] (Host.sign (F := Ideal) (m ((c : Thread nD τ).loc main_arg1)))
        transposes_S512x512_S512x512_1_0) bitsLt_bf16_f32 := by
  show StableHlo.after hostOps0 (fun b => m (c, b)) (Proc.devRef .tc main_call0_v3) = _
  after_results
  rfl

/-- The one-row matrix is the bias with a leading unit axis. -/
theorem bias_row (c : Dev nD) : (V m c main_call0_v4 : S1x512.Idx → EReal)
    = shapeCast S1x512 (m ((c : Thread nD τ).loc main_arg2)) shapeCasts_S512_S1x512 := by
  show StableHlo.after hostOps0 (fun b => m (c, b)) (Proc.devRef .tc main_call0_v4) = _
  after_results
  rfl

/-- Flat row `b · 4096 + s`, column `k`, is the activations' entry `(b, s, k)`. -/
theorem flat_x_entry (c : Dev nD) (b : Fin 16) (s : Fin 4096) (k : Fin 512) :
    (V m c main_call0_v0 : S65536x512.Idx → EReal) (ix2 (flatRow b s) k)
      = (m ((c : Thread nD τ).loc main_arg0) : S16x4096x512.Idx → EReal) (ix3 b s k) :=
  (congrFun (flat_x m c) _).trans
    (shapeCast_apply _ shapeCasts_S16x4096x512_S65536x512 (ix2 (flatRow b s) k) (ix3 b s k)
      (by rw [Shape.rowMajor_val_three, Shape.rowMajor_val_two]; rfl))

/-- The matrix at `(k, o)` is the sign of the weight at `(o, k)`. -/
theorem signs_t_entry (c : Dev nD) (k o : Fin 512) :
    (V m c main_call0_v3 : S512x512.Idx → EReal) (ix2 k o)
      = Ideal.sign ((m ((c : Thread nD τ).loc main_arg1) : S512x512.Idx → EReal) (ix2 o k)) :=
  (congrFun (signs_t m c) _).trans
    (transpose_ix2_apply (α := EReal) (Host.sign (F := Ideal) (φ := .f32) (m ((c : Thread nD τ).loc main_arg1)))
      transposes_S512x512_S512x512_1_0 k o)

/-- The one row at `(0, o)` is the bias at `o`. -/
theorem bias_row_entry (c : Dev nD) (o : Fin 512) :
    (V m c main_call0_v4 : S1x512.Idx → EReal) (ix2 (0 : Fin 1) o)
      = (m ((c : Thread nD τ).loc main_arg2) : S512.Idx → EReal) (ix1 o) :=
  (congrFun (bias_row m c) _).trans (shapeCast_a_1a_apply _ shapeCasts_S512_S1x512 (0 : Fin 1) o)

/-! ## The operation after the grid -/

/-- The program's result is the grid's result array with its 65536 rows split back into 16 × 4096. -/
theorem tail_result (c : Dev nD) :
    (Pipeline.afterTail₀ cfgs (dats m) 0 (V0 m) [hostOps1] c main_v0 : S16x4096x512.Idx → EReal)
      = shapeCast S16x4096x512 ((dats m 0 c).arrAt 3 cfg0.N) shapeCasts_S65536x512_S16x4096x512 := by
  have e := Pipeline.withArrays_arr spec0 launch0.win.arr_inj c (V0 m c) (fun w => (dats m 0 c).arrAt w cfg0.N) 3
  unfold Pipeline.afterTail₀
  show StableHlo.after hostOps1 _ (Proc.devRef .tc main_v0) = _
  after_results
  exact congrArg (fun A => shapeCast S16x4096x512 A shapeCasts_S65536x512_S16x4096x512) e

/-! ## The result -/

/-- The program's result, as the frame run's post names it, is `signedLinear` of the three arguments. -/
theorem result_eq (c : Dev nD) :
    (Pipeline.afterTail₀ cfgs (dats m) 0 (V0 m) [hostOps1] c main_v0 : S16x4096x512.Idx → EReal)
      = signedLinear (m ((c : Thread nD τ).loc main_arg0)) (m ((c : Thread nD τ).loc main_arg1)) (m ((c : Thread nD τ).loc main_arg2)) := by
  rw [tail_result m c, rows_final m c]
  funext i
  obtain ⟨b, s, o, rfl⟩ : ∃ (b : Fin 16) (s : Fin 4096) (o : Fin 512), i = ix3 b s o := ⟨i 0, i 1, i 2, eq_ix3 i⟩
  refine (shapeCast_apply _ shapeCasts_S65536x512_S16x4096x512 (ix3 b s o) (ix2 (flatRow b s) o)
    (by rw [Shape.rowMajor_val_two, Shape.rowMajor_val_three]; rfl)).trans ?_
  exact rowsTimes_flat _ _ _ _ _ _ (flat_x_entry m c) (signs_t_entry m c) (bias_row_entry m c) b s o

/-- Every weakly fair execution of the idealized kernel program terminates with the result at `signedLinear` of the
    arguments and the arguments unchanged. -/
theorem run : θ_run defs (onTc (τ := τ) (main (F := Ideal))) ⟨m, fun _ => 0, ρ⟩ fun r => ∀ c : Dev nD,
      r.2.mem ((c.tc : Thread nD τ).loc main_v0)
        = signedLinear (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v0 (Pipeline.mem_restRefs_of main_v0 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Whole

end
-- ==== Proof.lean ====
/-
  The kernel and its reference compute one function.

  The kernel multiplies the activations, flattened to 65536 rows and cut into 32 blocks of 2048 rows, by the transposed
  signs of the weights and adds the bias row; the reference contracts the three-axis activations with the signs of the
  weights and adds the bias.  On the extended reals both are

      y[b, s, o] = ∑ k, x[b, s, k] · sign(w[o, k]) + bias[o],

  the same sum over the same 512 products in both, so the two results agree entry by entry with no appeal to
  finiteness of the inputs: `Whole.run` gives the kernel program's result as this function of its arguments,
  `RefValue.result_eq` identifies the reference's last stage with it.  Narrowing to sixteen bits is the identity at the
  ideal instance and the idealization rewrote nothing, so the idealized kernel is the kernel's own text.  Each program
  terminates without fault and leaves its arguments as they were.
-/
import proofs.«149133_j61933428408793_2_alg».proof.Defs
import proofs.«149133_j61933428408793_2_alg».proof.Proof.Gen.Kernel
import proofs.«149133_j61933428408793_2_alg».proof.Proof.Gen.Kernel.Skeleton
import proofs.«149133_j61933428408793_2_alg».proof.Proof.Gen.Kernel.Launch
import proofs.«149133_j61933428408793_2_alg».proof.Proof.Gen.Kernel.Points
import proofs.«149133_j61933428408793_2_alg».proof.Proof.Gen.Kernel.Frame
import proofs.«149133_j61933428408793_2_alg».proof.Proof.Gen.KernelIdeal
import proofs.«149133_j61933428408793_2_alg».proof.Proof.Gen.KernelIdeal.Skeleton
import proofs.«149133_j61933428408793_2_alg».proof.Proof.Gen.KernelIdeal.Launch
import proofs.«149133_j61933428408793_2_alg».proof.Proof.Gen.KernelIdeal.Points
import proofs.«149133_j61933428408793_2_alg».proof.Proof.Gen.KernelIdeal.Frame
import proofs.«149133_j61933428408793_2_alg».proof.Proof.Gen.ReferenceIdeal
import proofs.«149133_j61933428408793_2_alg».proof.Proof.Gen.ReferenceIdeal.Run
import proofs.«149133_j61933428408793_2_alg».proof.Proof.Gen.ReferenceIdeal.Read
import proofs.«149133_j61933428408793_2_alg».proof.Proof.Gen.Pre_finite_inputs
import proofs.«149133_j61933428408793_2_alg».proof.Proof.SignedLinear
import proofs.«149133_j61933428408793_2_alg».proof.Proof.RefSignedLinear
import proofs.«149133_j61933428408793_2_alg».proof.Proof.Whole
import Idealize.ShloMosaic.Adequacy
import Idealize.ShloMosaic.Init

noncomputable section

namespace Cert.Proof

open Idealize.ShloMosaic Idealize.SL.Sem

/-- The kernel as printed runs to completion and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the statement about its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the signed linear map of the (agreeing) arguments. -/
theorem algebraic : Cert.algebraic_KernelIdeal_ReferenceIdeal := by
  intro m ρ m' ρ' _ hagree
  refine ⟨fun c => Cert.SignedLinear.signedLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
